-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S8x1024 : Shape := ⟨2, ![8, 1024]⟩
abbrev S1024x1024 : Shape := ⟨2, ![1024, 1024]⟩
abbrev S1024 : Shape := ⟨1, ![1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x8192x1024 .f32) (main_arg1 : FVec F S8x1024 .f32) (main_arg2 : FVec F S1024x1024 .f32) (main_arg3 : FVec F S1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x8192x1024 : Shape := ⟨3, ![8, 8192, 1024]⟩
abbrev S8x1024 : Shape := ⟨2, ![8, 1024]⟩
abbrev S1024x1024 : Shape := ⟨2, ![1024, 1024]⟩
abbrev S1024 : Shape := ⟨1, ![1024]⟩
abbrev S65536x1024 : Shape := ⟨2, ![65536, 1024]⟩
abbrev S1024x8 : Shape := ⟨2, ![1024, 8]⟩
abbrev S1x1024 : Shape := ⟨2, ![1, 1024]⟩
abbrev S2048x1024 : Shape := ⟨2, ![2048, 1024]⟩
abbrev S2048x8 : Shape := ⟨2, ![2048, 8]⟩
abbrev S2048 : Shape := ⟨1, ![2048]⟩
abbrev S2048x1 : Shape := ⟨2, ![2048, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S1024x1024, .f32⟩
  | .hbm, ⟨3, _⟩ => ⟨S1024, .f32⟩
  | .hbm, ⟨4, _⟩ => ⟨S65536x1024, .f32⟩
  | .hbm, ⟨5, _⟩ => ⟨S1024x1024, .f32⟩
  | .hbm, ⟨6, _⟩ => ⟨S1024x1024, .bf16⟩
  | .hbm, ⟨7, _⟩ => ⟨S1024x8, .f32⟩
  | .hbm, ⟨8, _⟩ => ⟨S1x1024, .f32⟩
  | .hbm, ⟨9, _⟩ => ⟨S65536x1024, .f32⟩
  | .hbm, ⟨10, _⟩ => ⟨S8x8192x1024, .f32⟩
  | .local _ .vmem, ⟨0, _⟩ => ⟨S2048x1024, .f32⟩
  | .local _ .vmem, ⟨1, _⟩ => ⟨S2048x1024, .f32⟩
  | .local _ .vmem, ⟨2, _⟩ => ⟨S8x1024, .f32⟩
  | .local _ .vmem, ⟨3, _⟩ => ⟨S1024x8, .f32⟩
  | .local _ .vmem, ⟨4, _⟩ => ⟨S1024x1024, .bf16⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x8192x1024_S65536x1024 : S8x8192x1024.ShapeCasts S65536x1024
  transposes_S1024x1024_S1024x1024_1_0 : S1024x1024.Transposes [1, 0] S1024x1024
  bitsLt_bf16_f32 : FTy.bits .bf16 < FTy.bits .f32
  transposes_S8x1024_S1024x8_1_0 : S8x1024.Transposes [1, 0] S1024x8
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S8x1024_S8x1024_0_0 : ∀ a, (![0, 0] : Fin 2 → Nat) a + S8x1024.size a ≤ S8x1024.size a
  h_S8x1024 : 0 < S8x1024.numel
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S2048x8_S2048 : S2048x8.Reduces [1] S2048
  shapeCasts_S2048_S2048x1 : S2048.ShapeCasts S2048x1
  broadcasts_S2048x1_S2048x8 : S2048x1.Broadcasts S2048x8
  broadcasts_S1x1024_S2048x1024 : S1x1024.Broadcasts S2048x1024
  shapeCasts_S65536x1024_S8x8192x1024 : S65536x1024.ShapeCasts S8x8192x1024
  dot_S2048x1024_S1024x8_S2048x8_1_0_0_1_n_n_wf : DotDims.WF S2048x1024 S1024x8 S2048x8 [1] [0] [0] [1] [] []
  dot_S2048x8_S8x1024_S2048x1024_1_0_0_1_n_n_wf : DotDims.WF S2048x8 S8x1024 S2048x1024 [1] [0] [0] [1] [] []
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .f32 = 32 ∨ (Rect.block (s := S8x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S1024x8.size a
  hwx0_2 : ∀ i : grid0.Coords, EltTy.bits .f32 = 32 ∨ (Rect.block (s := S1024x8) S1024x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S65536x1024.size a
  hwx0_5 : ∀ i : grid0.Coords, EltTy.bits .f32 = 32 ∨ (Rect.block (s := S65536x1024) S2048x1024.size (cc0_transform_5 i) (hinb0_5 i)).WholeWords (EltTy.packing .f32)

variable [Facts₀]

def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S8x1024 : Shape := ⟨2, ![8, 1024]⟩
abbrev S1024x1024 : Shape := ⟨2, ![1024, 1024]⟩
abbrev S1024 : Shape := ⟨1, ![1024]⟩
abbrev S8x8192x8 : Shape := ⟨3, ![8, 8192, 8]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S1024x1024, .f32⟩
  | .hbm, ⟨3, _⟩ => ⟨S1024, .f32⟩
  | .hbm, ⟨4, _⟩ => ⟨S8x8192x8, .f32⟩
  | .hbm, ⟨5, _⟩ => ⟨S_, .f32⟩
  | .hbm, ⟨6, _⟩ => ⟨S8x8192x8, .f32⟩
  | .hbm, ⟨7, _⟩ => ⟨S8x8192x8, .f32⟩
  | .hbm, ⟨8, _⟩ => ⟨S_, .f32⟩
  | .hbm, ⟨9, _⟩ => ⟨S8x8192, .f32⟩
  | .hbm, ⟨10, _⟩ => ⟨S_, .f32⟩
  | .hbm, ⟨11, _⟩ => ⟨S8x8192, .f32⟩
  | .hbm, ⟨12, _⟩ => ⟨S8x8192, .f32⟩
  | .hbm, ⟨13, _⟩ => ⟨S8x8192x1, .f32⟩
  | .hbm, ⟨14, _⟩ => ⟨S8x8192x8, .f32⟩
  | .hbm, ⟨15, _⟩ => ⟨S8x8192x8, .f32⟩
  | .hbm, ⟨16, _⟩ => ⟨S8x8192x8, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S8x8192x8, .f32⟩
  | .hbm, ⟨21, _⟩ => ⟨S8x8192x8, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S1x1x1024, .f32⟩
  | .hbm, ⟨26, _⟩ => ⟨S8x8192x1024, .f32⟩
  | .hbm, ⟨27, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S8x8192x8 : S_.BroadcastsInDim S8x8192x8 (![] : Fin 0 → Fin S8x8192x8.rank)
  reducesTo_S8x8192x8_S8x8192_d2 : S8x8192x8.ReducesTo [2] S8x8192
  h_S_ : 0 < S_.numel
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  bcast_S8x8192x1_S8x8192x8_0_1_2 : S8x8192x1.BroadcastsInDim S8x8192x8 (![0, 1, 2] : Fin 3 → Fin S8x8192x8.rank)
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  dot_S8x8192x1024_S8x1024_S8x8192x8_2_1_01_0_n_n_wf : DotDims.WF S8x8192x1024 S8x1024 S8x8192x8 [2] [1] [0, 1] [0] [] []
  dot_S8x8192x8_S8x1024_S8x8192x1024_2_0_01_1_n_n_wf : DotDims.WF S8x8192x8 S8x1024 S8x8192x1024 [2] [0] [0, 1] [1] [] []
  dot_S8x8192x1024_S1024x1024_S8x8192x1024_2_1_01_0_n_n_wf : DotDims.WF S8x8192x1024 S1024x1024 S8x8192x1024 [2] [1] [0, 1] [0] [] []

variable [Facts₀]

def dot_S8x8192x1024_S8x1024_S8x8192x8_2_1_01_0_n_n : DotDims S8x8192x1024 S8x1024 S8x8192x8 where
  lhsContracting := [2]
  rhsContracting := [1]
  lhsNonContracting := [0, 1]
  rhsNonContracting := [0]
  lhsBatch := []
  rhsBatch := []
  wf := dot_S8x8192x1024_S8x1024_S8x8192x8_2_1_01_0_n_n_wf
def dot_S8x8192x8_S8x1024_S8x8192x1024_2_0_01_1_n_n : DotDims S8x8192x8 S8x1024 S8x8192x1024 where
  lhsContracting := [2]
  rhsContracting := [0]
  lhsNonContracting := [0, 1]
  rhsNonContracting := [1]
  lhsBatch := []
  rhsBatch := []
  wf := dot_S8x8192x8_S8x1024_S8x8192x1024_2_0_01_1_n_n_wf
def dot_S8x8192x1024_S1024x1024_S8x8192x1024_2_1_01_0_n_n : DotDims S8x8192x1024 S1024x1024 S8x8192x1024 where
  lhsContracting := [2]
  rhsContracting := [1]
  lhsNonContracting := [0, 1]
  rhsNonContracting := [0]
  lhsBatch := []
  rhsBatch := []
  wf := dot_S8x8192x1024_S1024x1024_S8x8192x1024_2_1_01_0_n_n_wf

class Facts : Prop extends Facts₀ where

variable [Facts]
-- ==== Proof.HopfieldSpec.lean ====
/-
  A Hopfield read-out followed by a linear layer, one row at a time, as mathematics on the extended reals.

  For a row x of 1024 numbers, a bank P of 8 patterns, a weight matrix W and a bias:
    logit p   = (sum over d of x d * P p d) * 1
    weight p  = exp (logit p - max over the 8 logits)        (the maximum taken from -infinity upwards)
    score p   = weight p / (sum of the 8 weights)
    read d    = sum over p of score p * P p d
    out e     = (sum over d of (x d + read d) * W e d) + bias e
  The two float words (1.0 and -infinity) are kept as words: both programs carry the same words, so neither is
  ever evaluated.  Nothing here assumes a finite input: no step distributes, cancels or moves a factor.

  The whole result is the row function applied to every row of the input, once with the rows numbered 0..65535
  (the flat layout) and once with the rows numbered by (batch, position) (the layout of the arguments); the last
  lemma says the second is the first recast, because row-major position b * 8192 + s of the flat layout is row (b, s).
-/
import Idealize.ShloMosaic.PureOps.Ideal
import Idealize.ShloMosaic.Lib.ValueIdx
import Idealize.ShloMosaic.Lib.Pipeline.Value

noncomputable section

namespace Cert.Hopfield

open Idealize.ShloMosaic Idealize.ShloMosaic.ValueIdx

/-- The float word of 1.0, read as an extended real. -/
abbrev one : EReal := Ideal.ofBits .f32 0x3F800000#32
/-- The float word of -infinity, read as an extended real. -/
abbrev negInf : EReal := Ideal.ofBits .f32 0xFF800000#32

/-- The similarity of the row to pattern p (times the scale 1.0). -/
def logit (x : Fin 1024 → EReal) (P : Fin 8 → Fin 1024 → EReal) (p : Fin 8) : EReal :=
  (∑ d : Fin 1024, x d * P p d) * one

/-- The largest of eight numbers, taken from -infinity upwards. -/
def rowMax (l : Fin 8 → EReal) : EReal := (Finset.univ : Finset (Fin 8)).fold max negInf l

/-- The unnormalised softmax weight. -/
def weight (l : Fin 8 → EReal) (p : Fin 8) : EReal := Ideal.exp (l p - rowMax l)

/-- The softmax. -/
def score (l : Fin 8 → EReal) (p : Fin 8) : EReal := Ideal.div (weight l p) (∑ q : Fin 8, weight l q)

/-- The patterns mixed by the softmax of the row's similarities. -/
def readOut (x : Fin 1024 → EReal) (P : Fin 8 → Fin 1024 → EReal) (d : Fin 1024) : EReal :=
  ∑ p : Fin 8, score (logit x P) p * P p d

/-- The row plus its read-out, through the linear layer. -/
def rowOut (x : Fin 1024 → EReal) (P : Fin 8 → Fin 1024 → EReal) (W : Fin 1024 → Fin 1024 → EReal)
    (bias : Fin 1024 → EReal) (e : Fin 1024) : EReal :=
  (∑ d : Fin 1024, (x d + readOut x P d) * W e d) + bias e

/-- The result over the flat layout: entry (r, e) is the row function of row r. -/
def flat (h : (⟨2, ![65536, 1024]⟩ : Shape).Idx → EReal) (pat : (⟨2, ![8, 1024]⟩ : Shape).Idx → EReal)
    (w : (⟨2, ![1024, 1024]⟩ : Shape).Idx → EReal) (b : (⟨1, ![1024]⟩ : Shape).Idx → EReal) :
    (⟨2, ![65536, 1024]⟩ : Shape).Idx → EReal :=
  fun i => rowOut (fun d => h (ix2 (i 0) d)) (fun p d => pat (ix2 p d)) (fun e d => w (ix2 e d)) (fun e => b (ix1 e)) (i 1)

/-- The result over the arguments' layout: entry (b, s, e) is the row function of row (b, s). -/
def cube (h : (⟨3, ![8, 8192, 1024]⟩ : Shape).Idx → EReal) (pat : (⟨2, ![8, 1024]⟩ : Shape).Idx → EReal)
    (w : (⟨2, ![1024, 1024]⟩ : Shape).Idx → EReal) (b : (⟨1, ![1024]⟩ : Shape).Idx → EReal) :
    (⟨3, ![8, 8192, 1024]⟩ : Shape).Idx → EReal :=
  fun i => rowOut (fun d => h (ix3 (i 0) (i 1) d)) (fun p d => pat (ix2 p d)) (fun e d => w (ix2 e d)) (fun e => b (ix1 e)) (i 2)

theorem flat_apply (h : (⟨2, ![65536, 1024]⟩ : Shape).Idx → EReal) (pat : (⟨2, ![8, 1024]⟩ : Shape).Idx → EReal)
    (w : (⟨2, ![1024, 1024]⟩ : Shape).Idx → EReal) (b : (⟨1, ![1024]⟩ : Shape).Idx → EReal) (r : Fin 65536) (e : Fin 1024) :
    flat h pat w b (ix2 r e)
      = rowOut (fun d => h (ix2 r d)) (fun p d => pat (ix2 p d)) (fun e d => w (ix2 e d)) (fun e => b (ix1 e)) e := rfl

theorem cube_apply (h : (⟨3, ![8, 8192, 1024]⟩ : Shape).Idx → EReal) (pat : (⟨2, ![8, 1024]⟩ : Shape).Idx → EReal)
    (w : (⟨2, ![1024, 1024]⟩ : Shape).Idx → EReal) (b : (⟨1, ![1024]⟩ : Shape).Idx → EReal) (k : Fin 8) (s : Fin 8192) (e : Fin 1024) :
    cube h pat w b (ix3 k s e)
      = rowOut (fun d => h (ix3 k s d)) (fun p d => pat (ix2 p d)) (fun e d => w (ix2 e d)) (fun e => b (ix1 e)) e := rfl

/-- Row (k, s) of the arguments' layout is row k * 8192 + s of the flat layout. -/
def flatRow (k : Fin 8) (s : Fin 8192) : Fin 65536 := ⟨k.val * 8192 + s.val, by have := k.isLt; have := s.isLt; omega⟩

/-- The arguments recast flat, read at (k * 8192 + s, d), are the arguments at (k, s, d): a recast keeps the
    row-major position. -/
theorem recast_flat_apply (h : (⟨3, ![8, 8192, 1024]⟩ : Shape).Idx → EReal)
    (hc : (⟨3, ![8, 8192, 1024]⟩ : Shape).ShapeCasts ⟨2, ![65536, 1024]⟩) (k : Fin 8) (s : Fin 8192) (d : Fin 1024) :
    shapeCast ⟨2, ![65536, 1024]⟩ h hc (ix2 (flatRow k s) d) = h (ix3 k s d) :=
  shapeCast_apply h hc _ _ (by
    rw [Shape.rowMajor_val_three, Shape.rowMajor_val_two]
    rfl)

/-- The flat result of the flat-recast arguments, recast to the arguments' layout, is the result over that layout. -/
theorem recast_flat (h : (⟨3, ![8, 8192, 1024]⟩ : Shape).Idx → EReal) (pat : (⟨2, ![8, 1024]⟩ : Shape).Idx → EReal)
    (w : (⟨2, ![1024, 1024]⟩ : Shape).Idx → EReal) (b : (⟨1, ![1024]⟩ : Shape).Idx → EReal)
    (hc : (⟨3, ![8, 8192, 1024]⟩ : Shape).ShapeCasts ⟨2, ![65536, 1024]⟩)
    (hc' : (⟨2, ![65536, 1024]⟩ : Shape).ShapeCasts ⟨3, ![8, 8192, 1024]⟩) :
    shapeCast ⟨3, ![8, 8192, 1024]⟩ (flat (shapeCast ⟨2, ![65536, 1024]⟩ h hc) pat w b) hc' = cube h pat w b := by
  funext i
  obtain ⟨k, s, e, rfl⟩ : ∃ (k : Fin 8) (s : Fin 8192) (e : Fin 1024), i = ix3 k s e := ⟨i 0, i 1, i 2, eq_ix3 i⟩
  rw [shapeCast_apply (flat (shapeCast ⟨2, ![65536, 1024]⟩ h hc) pat w b) hc' (ix3 k s e) (ix2 (flatRow k s) e) (by
    rw [Shape.rowMajor_val_three, Shape.rowMajor_val_two]
    rfl), flat_apply, cube_apply]
  refine congrArg (fun x => rowOut x _ _ _ e) (funext fun d => ?_)
  exact recast_flat_apply h hc k s d

end Cert.Hopfield

end
-- ==== Proof.RefRows.lean ====
/-
  The reference program, stage by stage, is the row function of HopfieldSpec applied to every row (k, s).

  Each stage of the reference is read at an index with explicit coordinates: the logits are the row's products with a
  pattern summed over the model axis, times the scale (the reference writes the scale on the left, the row function on
  the right: multiplication commutes); the maximum over the eight logits is a fold of max from -infinity, and the
  reference's further maximum with -infinity changes nothing because the fold already starts there; the weights,
  their sum (from zero), the quotient, the mix of patterns, and the linear layer with its bias follow term by term.
-/
import proofs.«181765_j23210003268292_2_alg».proof.Proof.Gen.ReferenceIdeal.Read
import proofs.«181765_j23210003268292_2_alg».proof.Proof.HopfieldSpec
import Idealize.ShloMosaic.PureOps.Reduce
import Mathlib.Data.Finset.Fold

noncomputable section

namespace Cert.Hopfield.Ref

open Cert.ReferenceIdeal Cert.ReferenceIdeal.Gen Cert.ReferenceIdeal.Read
open Idealize.ShloMosaic Idealize.ShloMosaic.ValueIdx Cert.Hopfield

variable (x0 : (⟨S8x8192x1024, .f32⟩ : BufTy).Contents (Elt Ideal)) (x1 : (⟨S8x1024, .f32⟩ : BufTy).Contents (Elt Ideal))
  (x2 : (⟨S1024x1024, .f32⟩ : BufTy).Contents (Elt Ideal)) (x3 : (⟨S1024, .f32⟩ : BufTy).Contents (Elt Ideal))

/-- Row (k, s) of the input. -/
abbrev row (k : Fin 8) (s : Fin 8192) : Fin 1024 → EReal := fun d => x0 (ix3 k s d)
/-- The pattern bank by (pattern, model coordinate). -/
abbrev pats : Fin 8 → Fin 1024 → EReal := fun p d => x1 (ix2 p d)

/-! ## The index maps of the generated reading, at explicit coordinates -/

theorem lidx0 (k : Fin 8) (s : Fin 8192) (p : Fin 8) (d : Fin 1024) : lidx_main_v0 (ix3 k s p) d = ix3 k s d :=
  funext fun a => match a with | ⟨0, _⟩ => rfl | ⟨1, _⟩ => rfl | ⟨2, _⟩ => rfl
theorem ridx0 (k : Fin 8) (s : Fin 8192) (p : Fin 8) (d : Fin 1024) : ridx_main_v0 (ix3 k s p) d = ix2 p d :=
  funext fun a => match a with | ⟨0, _⟩ => rfl | ⟨1, _⟩ => rfl
theorem idx67 (k : Fin 8) (s : Fin 8192) (p : Fin 8) : idx_main_v6 (idx_main_v7 (ix3 k s p)) = ix2 k s :=
  funext fun a => match a with | ⟨0, _⟩ => rfl | ⟨1, _⟩ => rfl
theorem idx10 (k : Fin 8) (s : Fin 8192) (q : Fin 8) : idx_main_v10 (ix2 k s) q = ix3 k s q :=
  funext fun a => match a with | ⟨0, _⟩ => rfl | ⟨1, _⟩ => rfl | ⟨2, _⟩ => rfl
theorem idx1112 (k : Fin 8) (s : Fin 8192) (p : Fin 8) : idx_main_v11 (idx_main_v12 (ix3 k s p)) = ix2 k s :=
  funext fun a => match a with | ⟨0, _⟩ => rfl | ⟨1, _⟩ => rfl
theorem lidx14 (k : Fin 8) (s : Fin 8192) (d : Fin 1024) (p : Fin 8) : lidx_main_v14 (ix3 k s d) p = ix3 k s p :=
  funext fun a => match a with | ⟨0, _⟩ => rfl | ⟨1, _⟩ => rfl | ⟨2, _⟩ => rfl
theorem ridx14 (k : Fin 8) (s : Fin 8192) (d : Fin 1024) (p : Fin 8) : ridx_main_v14 (ix3 k s d) p = ix2 p d :=
  funext fun a => match a with | ⟨0, _⟩ => rfl | ⟨1, _⟩ => rfl
theorem lidx16 (k : Fin 8) (s : Fin 8192) (e d : Fin 1024) : lidx_main_v16 (ix3 k s e) d = ix3 k s d :=
  funext fun a => match a with | ⟨0, _⟩ => rfl | ⟨1, _⟩ => rfl | ⟨2, _⟩ => rfl
theorem ridx16 (k : Fin 8) (s : Fin 8192) (e d : Fin 1024) : ridx_main_v16 (ix3 k s e) d = ix2 e d :=
  funext fun a => match a with | ⟨0, _⟩ => rfl | ⟨1, _⟩ => rfl
theorem idx1718 (k : Fin 8) (s : Fin 8192) (e : Fin 1024) : idx_main_v17 (idx_main_v18 (ix3 k s e)) = ix1 e :=
  funext fun a => match a with | ⟨0, _⟩ => rfl

/-! ## The stages -/

/-- The scaled logits. -/
theorem logit_eq (k : Fin 8) (s : Fin 8192) (p : Fin 8) :
    val_main_v2 (F := Ideal) x0 x1 (ix3 k s p) = logit (row x0 k s) (pats x1) p := by
  rw [val_main_v2_apply, val_main_v1_apply, val_main_cst_apply, val_main_v0_apply]
  unfold logit
  rw [Ideal.mulf_def, Ideal.ofBits_def, mul_comm]
  refine congrArg (· * one) (Finset.sum_congr rfl fun d _ => ?_)
  rw [lidx0, ridx0]

/-- The witness that dropping the last axis of an [8, 8192, 8] array leaves [8, 8192]. -/
theorem dropsLast : S8x8192x8.Reduces [2] S8x8192 := by decide

/-- The index (k, s) with q inserted on the dropped axis. -/
theorem lift_eq (k : Fin 8) (s : Fin 8192) (q : Fin 8) : dropsLast.lift (ix2 k s) q = ix3 k s q :=
  funext fun a => Fin.ext (by match a with | ⟨0, _⟩ => rfl | ⟨1, _⟩ => rfl | ⟨2, _⟩ => rfl)

/-- The row's maximum: the fold from -infinity; a further maximum with -infinity is absorbed. -/
theorem max_eq (k : Fin 8) (s : Fin 8192) :
    val_main_v5 (F := Ideal) x0 x1 (ix2 k s) = rowMax (logit (row x0 k s) (pats x1)) := by
  rw [val_main_v5_apply, val_main_v4_apply, val_main_cst_1_apply]
  have h3 : val_main_v3 (F := Ideal) x0 x1 (ix2 k s) = rowMax (logit (row x0 k s) (pats x1)) := by
    unfold val_main_v3
    refine (Host.reduce_eq_fold_single _ _ _ reducesTo_S8x8192x8_S8x8192_d2 dropsLast h_S_ (ix2 k s)).trans ?_
    have hf : (val_main_v2 (F := Ideal) x0 x1 ∘ dropsLast.lift (ix2 k s)) = logit (row x0 k s) (pats x1) :=
      funext fun q => (congrArg (val_main_v2 (F := Ideal) x0 x1) (lift_eq k s q)).trans (logit_eq x0 x1 k s q)
    rw [hf]
    rfl
  rw [h3]
  exact max_eq_right ((Finset.le_fold_max _).mpr (Or.inl le_rfl))

/-- The unnormalised weights. -/
theorem weight_eq (k : Fin 8) (s : Fin 8192) (p : Fin 8) :
    val_main_v9 (F := Ideal) x0 x1 (ix3 k s p) = weight (logit (row x0 k s) (pats x1)) p := by
  rw [val_main_v9_apply, val_main_v8_apply, val_main_v7_apply, val_main_v6_apply, idx67, max_eq, logit_eq]
  rfl

/-- Their sum (from the zero word). -/
theorem sum_eq (k : Fin 8) (s : Fin 8192) :
    val_main_v10 (F := Ideal) x0 x1 (ix2 k s) = ∑ q : Fin 8, weight (logit (row x0 k s) (pats x1)) q := by
  rw [val_main_v10_apply, val_main_cst_2_apply, Ideal.ofBits_def, Ideal.ofBits_zero_f32, zero_add]
  refine Finset.sum_congr rfl fun q _ => ?_
  rw [idx10, weight_eq]

/-- The softmax. -/
theorem score_eq (k : Fin 8) (s : Fin 8192) (p : Fin 8) :
    val_main_v13 (F := Ideal) x0 x1 (ix3 k s p) = score (logit (row x0 k s) (pats x1)) p := by
  rw [val_main_v13_apply, val_main_v12_apply, val_main_v11_apply, idx1112, sum_eq, weight_eq]
  rfl

/-- The patterns mixed by the softmax. -/
theorem read_eq (k : Fin 8) (s : Fin 8192) (d : Fin 1024) :
    val_main_v14 (F := Ideal) x0 x1 (ix3 k s d) = readOut (row x0 k s) (pats x1) d := by
  rw [val_main_v14_apply]
  unfold readOut
  refine Finset.sum_congr rfl fun p _ => ?_
  rw [lidx14, ridx14, score_eq]

/-- The linear layer and its bias. -/
theorem out_eq (k : Fin 8) (s : Fin 8192) (e : Fin 1024) :
    val_main_v19 (F := Ideal) x0 x1 x2 x3 (ix3 k s e)
      = rowOut (row x0 k s) (pats x1) (fun e d => x2 (ix2 e d)) (fun e => x3 (ix1 e)) e := by
  rw [val_main_v19_apply, val_main_v16_apply, val_main_v18_apply, val_main_v17_apply, idx1718, Ideal.addf_def]
  unfold rowOut
  refine congrArg (· + x3 (ix1 e)) (Finset.sum_congr rfl fun d _ => ?_)
  rw [lidx16, ridx16, val_main_v15_apply, read_eq]
  rfl

/-- The reference's result is the row function over the arguments' layout. -/
theorem result_eq : val_main_v19 (F := Ideal) x0 x1 x2 x3 = cube x0 x1 x2 x3 := by
  funext i
  obtain ⟨k, s, e, rfl⟩ : ∃ (k : Fin 8) (s : Fin 8192) (e : Fin 1024), i = ix3 k s e := ⟨i 0, i 1, i 2, eq_ix3 i⟩
  rw [cube_apply]
  exact out_eq x0 x1 x2 x3 k s e

end Cert.Hopfield.Ref

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelRows.lean ====
/-
  One grid point of the kernel computes, for each of its 2048 rows, the row function of HopfieldSpec.

  The body's stored value is read at an entry (r, e) of the block.  Its three matrix products, each into a zero
  accumulator, are sums over the contracted axis; the maximum and the sum over the eight lanes are a fold of max from
  -infinity and a plain sum; a lane result recast as a column and spread back over the eight lanes reads the lane
  result of the row; the bias row spread over the 2048 rows reads the bias; recasts to the same shape and the change
  of float format are the identity.  The transposed pattern bank the body is handed must hold the pattern bank
  transposed (hypothesis hT): that is a fact about the operands, proved where the operands are known.
-/
import proofs.«181765_j23210003268292_2_alg».proof.Proof.Gen.KernelIdeal.Skeleton
import proofs.«181765_j23210003268292_2_alg».proof.Proof.HopfieldSpec
import proofs.«181765_j23210003268292_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.Hopfield.Kernel

open Cert.KernelIdeal Cert.KernelIdeal.Gen
open Idealize.ShloMosaic Idealize.ShloMosaic.ValueIdx Cert.Hopfield

/-! ## The three matrix products at an entry

The contraction index is its one coordinate, and the operand indices at an output entry are read coordinate by
coordinate: the left operand at (row, k), the right operand at (k, column). -/

/-! ### The product of rows times the transposed pattern bank: [2048, 1024] by [1024, 8] -/

theorem lhs1_0 (i : S2048x8.Idx) (q : dot_S2048x1024_S1024x8_S2048x8_1_0_0_1_n_n.contr.Idx) :
    (dot_S2048x1024_S1024x8_S2048x8_1_0_0_1_n_n.lhsIdx i q 0).val = (i 0).val := by
  unfold DotDims.lhsIdx
  rw [dif_neg (show ¬(0 : Fin S2048x1024.rank) ∈ dot_S2048x1024_S1024x8_S2048x8_1_0_0_1_n_n.lhsBatch by decide), dif_pos (show (0 : Fin S2048x1024.rank) ∈ dot_S2048x1024_S1024x8_S2048x8_1_0_0_1_n_n.lhsNonContracting by decide)]
  rfl
theorem lhs1_1 (i : S2048x8.Idx) (q : dot_S2048x1024_S1024x8_S2048x8_1_0_0_1_n_n.contr.Idx) :
    (dot_S2048x1024_S1024x8_S2048x8_1_0_0_1_n_n.lhsIdx i q 1).val = (q ⟨0, by decide⟩).val :=
  dot_S2048x1024_S1024x8_S2048x8_1_0_0_1_n_n.lhsIdx_val_of_single rfl i q
theorem rhs1_0 (i : S2048x8.Idx) (q : dot_S2048x1024_S1024x8_S2048x8_1_0_0_1_n_n.contr.Idx) :
    (dot_S2048x1024_S1024x8_S2048x8_1_0_0_1_n_n.rhsIdx i q 0).val = (q ⟨0, by decide⟩).val :=
  dot_S2048x1024_S1024x8_S2048x8_1_0_0_1_n_n.rhsIdx_val_of_single rfl i q
theorem rhs1_1 (i : S2048x8.Idx) (q : dot_S2048x1024_S1024x8_S2048x8_1_0_0_1_n_n.contr.Idx) :
    (dot_S2048x1024_S1024x8_S2048x8_1_0_0_1_n_n.rhsIdx i q 1).val = (i 1).val := by
  unfold DotDims.rhsIdx
  rw [dif_neg (show ¬(1 : Fin S1024x8.rank) ∈ dot_S2048x1024_S1024x8_S2048x8_1_0_0_1_n_n.rhsBatch by decide), dif_pos (show (1 : Fin S1024x8.rank) ∈ dot_S2048x1024_S1024x8_S2048x8_1_0_0_1_n_n.rhsNonContracting by decide)]
  rfl

/-- Into a zero accumulator, entry (r, c) of the product is the sum over the contracted axis of the products of
    row r of the left operand with column c of the right. -/
theorem product1_apply (prec : Option ContractPrecision) (A : FVec Ideal S2048x1024 .f32) (B : FVec Ideal S1024x8 .f32) (r : Fin 2048) (c : Fin 8) :
    matmul dot_S2048x1024_S1024x8_S2048x8_1_0_0_1_n_n prec A B (constant S2048x8 .f32 0x00000000#32) (ix2 r c)
      = ∑ k : Fin 1024, A (ix2 r k) * B (ix2 k c) := by
  refine (Ideal.matmul_constant_zero_apply dot_S2048x1024_S1024x8_S2048x8_1_0_0_1_n_n prec A B (ix2 r c)).trans ?_
  rw [← Equiv.sum_comp (contrEquiv1 dot_S2048x1024_S1024x8_S2048x8_1_0_0_1_n_n 1024 rfl rfl).symm]
  refine Finset.sum_congr rfl fun k _ => ?_
  have hk := contrEquiv1_symm_val dot_S2048x1024_S1024x8_S2048x8_1_0_0_1_n_n 1024 rfl rfl k
  have el : dot_S2048x1024_S1024x8_S2048x8_1_0_0_1_n_n.lhsIdx (ix2 r c) ((contrEquiv1 dot_S2048x1024_S1024x8_S2048x8_1_0_0_1_n_n 1024 rfl rfl).symm k) = ix2 r k := funext fun a => Fin.ext (by
    match a with
    | ⟨0, _⟩ => exact lhs1_0 _ _
    | ⟨1, _⟩ => exact (lhs1_1 _ _).trans hk)
  have er : dot_S2048x1024_S1024x8_S2048x8_1_0_0_1_n_n.rhsIdx (ix2 r c) ((contrEquiv1 dot_S2048x1024_S1024x8_S2048x8_1_0_0_1_n_n 1024 rfl rfl).symm k) = ix2 k c := funext fun a => Fin.ext (by
    match a with
    | ⟨0, _⟩ => exact (rhs1_0 _ _).trans hk
    | ⟨1, _⟩ => exact rhs1_1 _ _)
  rw [el, er]

/-! ### The product of scores times the pattern bank: [2048, 8] by [8, 1024] -/

theorem lhs2_0 (i : S2048x1024.Idx) (q : dot_S2048x8_S8x1024_S2048x1024_1_0_0_1_n_n.contr.Idx) :
    (dot_S2048x8_S8x1024_S2048x1024_1_0_0_1_n_n.lhsIdx i q 0).val = (i 0).val := by
  unfold DotDims.lhsIdx
  rw [dif_neg (show ¬(0 : Fin S2048x8.rank) ∈ dot_S2048x8_S8x1024_S2048x1024_1_0_0_1_n_n.lhsBatch by decide), dif_pos (show (0 : Fin S2048x8.rank) ∈ dot_S2048x8_S8x1024_S2048x1024_1_0_0_1_n_n.lhsNonContracting by decide)]
  rfl
theorem lhs2_1 (i : S2048x1024.Idx) (q : dot_S2048x8_S8x1024_S2048x1024_1_0_0_1_n_n.contr.Idx) :
    (dot_S2048x8_S8x1024_S2048x1024_1_0_0_1_n_n.lhsIdx i q 1).val = (q ⟨0, by decide⟩).val :=
  dot_S2048x8_S8x1024_S2048x1024_1_0_0_1_n_n.lhsIdx_val_of_single rfl i q
theorem rhs2_0 (i : S2048x1024.Idx) (q : dot_S2048x8_S8x1024_S2048x1024_1_0_0_1_n_n.contr.Idx) :
    (dot_S2048x8_S8x1024_S2048x1024_1_0_0_1_n_n.rhsIdx i q 0).val = (q ⟨0, by decide⟩).val :=
  dot_S2048x8_S8x1024_S2048x1024_1_0_0_1_n_n.rhsIdx_val_of_single rfl i q
theorem rhs2_1 (i : S2048x1024.Idx) (q : dot_S2048x8_S8x1024_S2048x1024_1_0_0_1_n_n.contr.Idx) :
    (dot_S2048x8_S8x1024_S2048x1024_1_0_0_1_n_n.rhsIdx i q 1).val = (i 1).val := by
  unfold DotDims.rhsIdx
  rw [dif_neg (show ¬(1 : Fin S8x1024.rank) ∈ dot_S2048x8_S8x1024_S2048x1024_1_0_0_1_n_n.rhsBatch by decide), dif_pos (show (1 : Fin S8x1024.rank) ∈ dot_S2048x8_S8x1024_S2048x1024_1_0_0_1_n_n.rhsNonContracting by decide)]
  rfl

/-- Into a zero accumulator, entry (r, c) of the product is the sum over the contracted axis of the products of
    row r of the left operand with column c of the right. -/
theorem product2_apply (prec : Option ContractPrecision) (A : FVec Ideal S2048x8 .f32) (B : FVec Ideal S8x1024 .f32) (r : Fin 2048) (c : Fin 1024) :
    matmul dot_S2048x8_S8x1024_S2048x1024_1_0_0_1_n_n prec A B (constant S2048x1024 .f32 0x00000000#32) (ix2 r c)
      = ∑ k : Fin 8, A (ix2 r k) * B (ix2 k c) := by
  refine (Ideal.matmul_constant_zero_apply dot_S2048x8_S8x1024_S2048x1024_1_0_0_1_n_n prec A B (ix2 r c)).trans ?_
  rw [← Equiv.sum_comp (contrEquiv1 dot_S2048x8_S8x1024_S2048x1024_1_0_0_1_n_n 8 rfl rfl).symm]
  refine Finset.sum_congr rfl fun k _ => ?_
  have hk := contrEquiv1_symm_val dot_S2048x8_S8x1024_S2048x1024_1_0_0_1_n_n 8 rfl rfl k
  have el : dot_S2048x8_S8x1024_S2048x1024_1_0_0_1_n_n.lhsIdx (ix2 r c) ((contrEquiv1 dot_S2048x8_S8x1024_S2048x1024_1_0_0_1_n_n 8 rfl rfl).symm k) = ix2 r k := funext fun a => Fin.ext (by
    match a with
    | ⟨0, _⟩ => exact lhs2_0 _ _
    | ⟨1, _⟩ => exact (lhs2_1 _ _).trans hk)
  have er : dot_S2048x8_S8x1024_S2048x1024_1_0_0_1_n_n.rhsIdx (ix2 r c) ((contrEquiv1 dot_S2048x8_S8x1024_S2048x1024_1_0_0_1_n_n 8 rfl rfl).symm k) = ix2 k c := funext fun a => Fin.ext (by
    match a with
    | ⟨0, _⟩ => exact (rhs2_0 _ _).trans hk
    | ⟨1, _⟩ => exact rhs2_1 _ _)
  rw [el, er]

/-! ### The product of rows times the transposed weights: [2048, 1024] by [1024, 1024] -/

theorem lhs3_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem lhs3_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem rhs3_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem rhs3_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- Into a zero accumulator, entry (r, c) of the product is the sum over the contracted axis of the products of
    row r of the left operand with column c of the right. -/
theorem product3_apply (prec : Option ContractPrecision) (A : FVec Ideal S2048x1024 .bf16) (B : FVec Ideal S1024x1024 .bf16) (r : Fin 2048) (c : Fin 1024) :
    matmul dot_S2048x1024_S1024x1024_S2048x1024_1_0_0_1_n_n prec A B (constant S2048x1024 .f32 0x00000000#32) (ix2 r c)
      = ∑ k : Fin 1024, A (ix2 r k) * B (ix2 k c) := by
  refine (Ideal.matmul_constant_zero_apply dot_S2048x1024_S1024x1024_S2048x1024_1_0_0_1_n_n prec A B (ix2 r c)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r c) ((contrEquiv1 dot_S2048x1024_S1024x1024_S2048x1024_1_0_0_1_n_n 1024 rfl rfl).symm k) = ix2 r k := funext fun a => Fin.ext (by
    match a with
    | ⟨0, _⟩ => exact lhs3_0 _ _
    | ⟨1, _⟩ => exact (lhs3_1 _ _).trans hk)
  have er : dot_S2048x1024_S1024x1024_S2048x1024_1_0_0_1_n_n.rhsIdx (ix2 r c) ((contrEquiv1 dot_S2048x1024_S1024x1024_S2048x1024_1_0_0_1_n_n 1024 rfl rfl).symm k) = ix2 k c := funext fun a => Fin.ext (by
    match a with
    | ⟨0, _⟩ => exact (rhs3_0 _ _).trans hk
    | ⟨1, _⟩ => exact rhs3_1 _ _)
  rw [el, er]

/-! ## The lane reductions and the layout steps at an entry -/

/-- The maximum over the eight lanes of row r, from -infinity. -/
def laneMax (l : FVec Ideal S2048x8 .f32) : FVec Ideal S2048 .f32 :=
  multiReduction .maximumf [1] S2048 l 0xFF800000#32 reduces_S2048x8_S2048 (.inl rfl) rfl

/-- The sum over the eight lanes of row r. -/
def laneSum (l : FVec Ideal S2048x8 .f32) : FVec Ideal S2048 .f32 :=
  multiReduction .add [1] S2048 l 0x00000000#32 reduces_S2048x8_S2048 (.inl rfl) rfl

/-- A per-row value recast as a column and spread over the eight lanes. -/
def spread (v : FVec Ideal S2048 .f32) : FVec Ideal S2048x8 .f32 :=
  broadcastTo S2048x8 (shapeCast S2048x1 v shapeCasts_S2048_S2048x1) broadcasts_S2048x1_S2048x8

/-- Row r with lane p inserted is entry (r, p). -/
theorem lane_eq (r : Fin 2048) (p : Fin 8) : reduces_S2048x8_S2048.lift (ix1 r) p = ix2 r p :=
  funext fun a => Fin.ext (by match a with | ⟨0, _⟩ => rfl | ⟨1, _⟩ => rfl)

theorem laneMax_apply (l : FVec Ideal S2048x8 .f32) (r : Fin 2048) :
    laneMax l (ix1 r) = (Finset.univ : Finset (Fin 8)).fold max negInf (fun p => l (ix2 r p)) := by
  unfold laneMax
  refine (Ideal.multiReduction_maximumf_single l 0xFF800000#32 reduces_S2048x8_S2048 (.inl rfl) rfl (ix1 r)).trans ?_
  have hf : (l ∘ reduces_S2048x8_S2048.lift (ix1 r)) = fun p : Fin 8 => l (ix2 r p) :=
    funext fun p => congrArg l (lane_eq r p)
  rw [hf]
  rfl

theorem laneSum_apply (l : FVec Ideal S2048x8 .f32) (r : Fin 2048) :
    laneSum l (ix1 r) = ∑ p : Fin 8, l (ix2 r p) := by
  unfold laneSum
  refine (Ideal.multiReduction_add_single l 0x00000000#32 reduces_S2048x8_S2048 (.inl rfl) rfl (ix1 r)).trans ?_
  show ∑ p : Fin 8, l (reduces_S2048x8_S2048.lift (ix1 r) p) = _
  simp only [lane_eq]

theorem spread_apply (v : FVec Ideal S2048 .f32) (r : Fin 2048) (p : Fin 8) : spread v (ix2 r p) = v (ix1 r) :=
  (Cert.LibKeepdims.broadcastTo_a1_ab_apply (a := 2048) (b := 8) _ broadcasts_S2048x1_S2048x8 r p).trans
    (Cert.LibKeepdims.shapeCast_a_a1_apply (a := 2048) v shapeCasts_S2048_S2048x1 r 0)

/-! ## The body's value in named pieces -/

/-- The scaled logits of the block's rows. -/
def logits (v0 : FVec Ideal S2048x1024 .f32) (v3 : FVec Ideal S1024x8 .f32) : FVec Ideal S2048x8 .f32 :=
  mulf (matmul (φ₁ := .f32) (φ₂ := .f32) dot_S2048x1024_S1024x8_S2048x8_1_0_0_1_n_n (some .fp32) (shapeCast S2048x1024 v0 shapeCasts_S2048x1024_S2048x1024)
      (shapeCast S1024x8 v3 shapeCasts_S1024x8_S1024x8) (constant S2048x8 .f32 0x00000000#32))
    (broadcast S2048x8 (Scalar.ofBits .f32 0x3F800000#32))

/-- The unnormalised softmax weights. -/
def weights (l : FVec Ideal S2048x8 .f32) : FVec Ideal S2048x8 .f32 := exp (subf l (spread (laneMax l)))

/-- The softmax. -/
def scores (w : FVec Ideal S2048x8 .f32) : FVec Ideal S2048x8 .f32 := divf w (spread (laneSum w))

/-- The patterns mixed by the softmax. -/
def mixed (sc : FVec Ideal S2048x8 .f32) (v2 : FVec Ideal S8x1024 .f32) : FVec Ideal S2048x1024 .f32 :=
  matmul (φ₁ := .f32) (φ₂ := .f32) dot_S2048x8_S8x1024_S2048x1024_1_0_0_1_n_n (some .fp32) sc v2 (constant S2048x1024 .f32 0x00000000#32)

/-- The body's stored value is these pieces put together. -/
theorem payload_pieces (v0 : FVec Ideal S2048x1024 .f32) (v2 : FVec Ideal S8x1024 .f32) (v3 : FVec Ideal S1024x8 .f32)
    (v5 : FVec Ideal S1024x1024 .bf16) (v7 : FVec Ideal S1x1024 .f32) :
    k0_pay1 (F := Ideal) v0 v2 v3 v5 v7
      = addf (matmul (φ₁ := .bf16) (φ₂ := .bf16) dot_S2048x1024_S1024x1024_S2048x1024_1_0_0_1_n_n none
            (truncf .bf16 (addf (shapeCast S2048x1024 v0 shapeCasts_S2048x1024_S2048x1024) (mixed (scores (weights (logits v0 v3))) v2)) bitsLt_bf16_f32)
            (shapeCast S1024x1024 v5 shapeCasts_S1024x1024_S1024x1024) (constant S2048x1024 .f32 0x00000000#32))
          (broadcastTo S2048x1024 (shapeCast S1x1024 v7 shapeCasts_S1x1024_S1x1024) broadcasts_S1x1024_S2048x1024) := rfl

/-! ## The pieces at an entry -/

theorem logits_apply (v0 : FVec Ideal S2048x1024 .f32) (v3 : FVec Ideal S1024x8 .f32) (r : Fin 2048) (p : Fin 8) :
    logits v0 v3 (ix2 r p) = logit (fun d => v0 (ix2 r d)) (fun p d => v3 (ix2 d p)) p := by
  unfold logits logit
  rw [mulf_apply, product1_apply, shapeCast_self, shapeCast_self]
  rfl

theorem weights_apply (l : FVec Ideal S2048x8 .f32) (r : Fin 2048) (p : Fin 8) :
    weights l (ix2 r p) = weight (fun q => l (ix2 r q)) p := by
  unfold weights weight rowMax
  show Ideal.exp (l (ix2 r p) - spread (laneMax l) (ix2 r p)) = _
  rw [spread_apply, laneMax_apply]

theorem scores_apply (l : FVec Ideal S2048x8 .f32) (r : Fin 2048) (p : Fin 8) :
    scores (weights l) (ix2 r p) = score (fun q => l (ix2 r q)) p := by
  unfold scores score
  show Ideal.div (weights l (ix2 r p)) (spread (laneSum (weights l)) (ix2 r p)) = _
  rw [spread_apply, laneSum_apply, weights_apply]
  simp only [weights_apply]

theorem mixed_apply (l : FVec Ideal S2048x8 .f32) (v2 : FVec Ideal S8x1024 .f32) (r : Fin 2048) (d : Fin 1024) :
    mixed (scores (weights l)) v2 (ix2 r d) = ∑ p : Fin 8, score (fun q => l (ix2 r q)) p * v2 (ix2 p d) := by
  unfold mixed
  rw [product2_apply]
  simp only [scores_apply]

/-- The body's stored value at entry (r, e) of the block: the row function of row r of the input block, with the
    pattern bank, the weights read transposed, and the bias row. -/
theorem payload_apply (v0 : FVec Ideal S2048x1024 .f32) (v2 : FVec Ideal S8x1024 .f32) (v3 : FVec Ideal S1024x8 .f32)
    (v5 : FVec Ideal S1024x1024 .bf16) (v7 : FVec Ideal S1x1024 .f32)
    (hT : ∀ (d : Fin 1024) (p : Fin 8), v3 (ix2 d p) = v2 (ix2 p d)) (r : Fin 2048) (e : Fin 1024) :
    k0_pay1 (F := Ideal) v0 v2 v3 v5 v7 (ix2 r e)
      = rowOut (fun d => v0 (ix2 r d)) (fun p d => v2 (ix2 p d)) (fun e d => v5 (ix2 d e)) (fun e => v7 (ix2 (0 : Fin 1) e)) e := by
  rw [payload_pieces, addf_apply, product3_apply, broadcastTo_1b_ab_apply, shapeCast_self, shapeCast_self, shapeCast_self]
  unfold rowOut readOut
  refine congrArg (· + v7 (ix2 (0 : Fin 1) e)) (Finset.sum_congr rfl fun d _ => ?_)
  rw [truncf_apply, addf_apply, mixed_apply]
  have hl : (fun q => logits v0 v3 (ix2 r q)) = logit (fun d => v0 (ix2 r d)) (fun p d => v2 (ix2 p d)) :=
    funext fun q => by
      rw [logits_apply]
      unfold logit
      simp only [hT]
  rw [hl]

end Cert.Hopfield.Kernel

end
-- ==== Proof.KernelOperands.lean ====
/-
  The kernel's operands as the pallas_call finds them, and each input window's block read at an entry.

  Before the call the program recasts the input to 65536 rows, transposes the pattern bank, transposes the weights and
  narrows their float format (the identity on extended reals), and recasts the bias to one row.  Grid point t is handed
  rows t * 2048 .. t * 2048 + 2047 of the recast input; the other four operands are handed whole at every point.
-/
import proofs.«181765_j23210003268292_2_alg».proof.Proof.Gen.KernelIdeal.Frame
import proofs.«181765_j23210003268292_2_alg».proof.Proof.HopfieldSpec
import Idealize.ShloMosaic.Lib.Pipeline.Value
import Idealize.ShloMosaic.Lib.ValueIdx
import Idealize.ShloMosaic.Lib.ValueLayout
import Idealize.ShloMosaic.Lib.StableHlo.Run

noncomputable section

namespace Cert.Hopfield.Operands

open Cert.KernelIdeal Cert.KernelIdeal.Gen
open Idealize.ShloMosaic Idealize.ShloMosaic.TcCoe Idealize.SL.Sem Idealize.ShloMosaic.StableHlo
open Idealize.ShloMosaic.ValueIdx Cert.Hopfield

variable (m : (ℓ : Loc nD τ sig) → Buf (Elt Ideal) ℓ)

/-! ## What the program wrote before the call -/

/-- The input, recast to 65536 rows. -/
theorem V_rows (c : Dev nD) :
    (V m c main_v0 : S65536x1024.Idx → EReal)
      = shapeCast S65536x1024 (m ((c : Thread nD τ).loc main_arg0)) shapeCasts_S8x8192x1024_S65536x1024 := by
  show StableHlo.after hostOps0 (fun b => m (c, b)) (Proc.devRef .tc main_v0) = _
  after_results <;> rfl

/-- The pattern bank, transposed. -/
theorem V_patT (c : Dev nD) :
    (V m c main_v3 : S1024x8.Idx → EReal)
      = transpose S1024x8 [1, 0] (m ((c : Thread nD τ).loc main_arg1)) transposes_S8x1024_S1024x8_1_0 := by
  show StableHlo.after hostOps0 (fun b => m (c, b)) (Proc.devRef .tc main_v3) = _
  after_results <;> rfl

/-- The weights, transposed and narrowed. -/
theorem V_wT (c : Dev nD) :
    (V m c main_v2 : S1024x1024.Idx → EReal)
      = truncf (F := Ideal) .bf16 (transpose S1024x1024 [1, 0] (m ((c : Thread nD τ).loc main_arg2)) transposes_S1024x1024_S1024x1024_1_0) bitsLt_bf16_f32 := by
  show StableHlo.after hostOps0 (fun b => m (c, b)) (Proc.devRef .tc main_v2) = _
  after_results <;> rfl

/-- The bias, as one row. -/
theorem V_biasRow (c : Dev nD) :
    (V m c main_v4 : S1x1024.Idx → EReal)
      = shapeCast S1x1024 (m ((c : Thread nD τ).loc main_arg3)) shapeCasts_S1024_S1x1024 := by
  show StableHlo.after hostOps0 (fun b => m (c, b)) (Proc.devRef .tc main_v4) = _
  after_results <;> rfl

/-! ## The blocks a grid point is handed -/

/-- The printed index maps over the 32 grid points: the input rows and the output rows are at block t of their row
    axis, every other operand at block 0 of both axes. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of point t's input block is row t * 2048 + r of the recast input. -/
theorem rows_apply (c : Dev nD) (t : Fin cfg0.N) (r : Fin 2048) (d : Fin 1024) (R : Fin 65536)
    (hR : R.val = t.val * 2048 + r.val) :
    iblk m c 0 t (ix2 r d) = V m c main_v0 (ix2 R d) := by
  obtain ⟨e0, e1, -⟩ := idx_facts t
  show V m c main_v0 (((cfg0.win 0).blk t).view.emb (ix2 r d)) = V m c main_v0 (ix2 R d)
  refine congrArg (V m c main_v0) (funext fun a => Fin.ext ?_)
  match a with
  | ⟨0, _⟩ => show win0_0.index t (0 : Fin 2) * 2048 + 1 * r.val = R.val; omega
  | ⟨1, _⟩ => show win0_0.index t (1 : Fin 2) * 1024 + 1 * d.val = d.val; omega

/-- The pattern bank's block is the pattern bank. -/
theorem pat_apply (c : Dev nD) (t : Fin cfg0.N) (p : Fin 8) (d : Fin 1024) :
    iblk m c 1 t (ix2 p d) = m ((c : Thread nD τ).loc main_arg1) (ix2 p d) := by
  obtain ⟨-, -, e0, e1, -⟩ := idx_facts t
  show V m c main_arg1 (((cfg0.win 1).blk t).view.emb (ix2 p d)) = _
  refine (congrFun (V_main_arg1 m c) _).trans ?_
  refine congrArg (m ((c : Thread nD τ).loc main_arg1)) (funext fun a => Fin.ext ?_)
  match a with
  | ⟨0, _⟩ => show win0_1.index t (0 : Fin 2) * 8 + 1 * p.val = p.val; omega
  | ⟨1, _⟩ => show win0_1.index t (1 : Fin 2) * 1024 + 1 * d.val = d.val; omega

/-- The transposed bank's block at (d, p) is the pattern bank at (p, d). -/
theorem patT_apply (c : Dev nD) (t : Fin cfg0.N) (d : Fin 1024) (p : Fin 8) :
    iblk m c 2 t (ix2 d p) = m ((c : Thread nD τ).loc main_arg1) (ix2 p d) := by
  obtain ⟨-, -, -, -, e0, e1, -⟩ := idx_facts t
  show V m c main_v3 (((cfg0.win 2).blk t).view.emb (ix2 d p)) = _
  have hemb : ((cfg0.win 2).blk t).view.emb (ix2 d p) = ix2 d p := funext fun a => Fin.ext (by
    match a with
    | ⟨0, _⟩ => show win0_2.index t (0 : Fin 2) * 1024 + 1 * d.val = d.val; omega
    | ⟨1, _⟩ => show win0_2.index t (1 : Fin 2) * 8 + 1 * p.val = p.val; omega)
  exact (congrArg (V m c main_v3) hemb).trans ((congrFun (V_patT m c) (ix2 d p)).trans
    (transpose_ix2_apply (a := 8) (b := 1024) _ transposes_S8x1024_S1024x8_1_0 d p))

/-- The transposed weights' block at (d, e) is the weights at (e, d). -/
theorem wT_apply (c : Dev nD) (t : Fin cfg0.N) (d e : Fin 1024) :
    iblk m c 3 t (ix2 d e) = m ((c : Thread nD τ).loc main_arg2) (ix2 e d) := by
  obtain ⟨-, -, -, -, -, -, e0, e1, -⟩ := idx_facts t
  show V m c main_v2 (((cfg0.win 3).blk t).view.emb (ix2 d e)) = _
  have hemb : ((cfg0.win 3).blk t).view.emb (ix2 d e) = ix2 d e := funext fun a => Fin.ext (by
    match a with
    | ⟨0, _⟩ => show win0_3.index t (0 : Fin 2) * 1024 + 1 * d.val = d.val; omega
    | ⟨1, _⟩ => show win0_3.index t (1 : Fin 2) * 1024 + 1 * e.val = e.val; omega)
  exact (congrArg (V m c main_v2) hemb).trans ((congrFun (V_wT m c) (ix2 d e)).trans
    (transpose_ix2_apply (a := 1024) (b := 1024) _ transposes_S1024x1024_S1024x1024_1_0 d e))

/-- The bias row's block at (0, e) is the bias at e. -/
theorem bias_apply (c : Dev nD) (t : Fin cfg0.N) (e : Fin 1024) :
    iblk m c 4 t (ix2 (0 : Fin 1) e) = m ((c : Thread nD τ).loc main_arg3) (ix1 e) := by
  obtain ⟨-, -, -, -, -, -, -, -, e0, e1, -⟩ := idx_facts t
  show V m c main_v4 (((cfg0.win 4).blk t).view.emb (ix2 (0 : Fin 1) e)) = _
  have hemb : ((cfg0.win 4).blk t).view.emb (ix2 (0 : Fin 1) e) = ix2 (0 : Fin 1) e := funext fun a => Fin.ext (by
    match a with
    | ⟨0, _⟩ => show win0_4.index t (0 : Fin 2) * 1 + 1 * (0 : Fin 1).val = (0 : Fin 1).val; omega
    | ⟨1, _⟩ => show win0_4.index t (1 : Fin 2) * 1024 + 1 * e.val = e.val; omega)
  exact (congrArg (V m c main_v4) hemb).trans ((congrFun (V_biasRow m c) (ix2 (0 : Fin 1) e)).trans
    (shapeCast_a_1a_apply (a := 1024) _ shapeCasts_S1024_S1x1024 0 e))

end Cert.Hopfield.Operands

end
-- ==== Proof.KernelArray.lean ====
/-
  The array the pallas_call leaves, the program's result after the closing recast, and the kernel program's run.

  Grid point t stores rows t * 2048 .. t * 2048 + 2047 of the flat result: its block of the input is those rows of the
  recast input, and the other operands are whole, so each stored entry is the row function of its own row.  The 32 blocks
  tile the 65536 rows (row i lies in the block of point i / 2048), so the array after the call is the flat result; the
  program then recasts it to the arguments' layout, which by the row-major position is the result over that layout.
-/
import proofs.«181765_j23210003268292_2_alg».proof.Proof.Gen.KernelIdeal.Frame
import proofs.«181765_j23210003268292_2_alg».proof.Proof.HopfieldSpec
import proofs.«181765_j23210003268292_2_alg».proof.Proof.KernelRows
import proofs.«181765_j23210003268292_2_alg».proof.Proof.KernelOperands
import Idealize.ShloMosaic.Lib.Pipeline.Value
import Idealize.ShloMosaic.Lib.StableHlo.Run

noncomputable section

namespace Cert.Hopfield.Array

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx Cert.Hopfield Cert.Hopfield.Kernel Cert.Hopfield.Operands

variable (m : (ℓ : Loc nD τ sig) → Buf (Elt Ideal) ℓ) (ρ : Dev nD → PrngReg)

/-- The call's result array: the row function of every row of the recast input. -/
def result (c : Dev nD) : S65536x1024.Idx → EReal :=
  flat (V m c main_v0) (m ((c : Thread nD τ).loc main_arg1)) (m ((c : Thread nD τ).loc main_arg2))
    (m ((c : Thread nD τ).loc main_arg3))

theorem zeroOffsets : (![0, 0] : Fin 2 → Nat) = fun _ => 0 := funext fun a => by fin_cases a <;> rfl

/-- One stored entry, over operands known entry by entry: the row function of the row the entry belongs to. -/
theorem point_eq (x0 : FVec Ideal S2048x1024 .f32) (x1 : FVec Ideal S8x1024 .f32) (x2 : FVec Ideal S1024x8 .f32)
    (x3 : FVec Ideal S1024x1024 .bf16) (x4 : FVec Ideal S1x1024 .f32)
    (h : (⟨2, ![65536, 1024]⟩ : Shape).Idx → EReal) (pat : (⟨2, ![8, 1024]⟩ : Shape).Idx → EReal)
    (w : (⟨2, ![1024, 1024]⟩ : Shape).Idx → EReal) (b : (⟨1, ![1024]⟩ : Shape).Idx → EReal)
    (r : Fin 2048) (e : Fin 1024) (R : Fin 65536)
    (h0 : ∀ d : Fin 1024, x0 (ix2 r d) = h (ix2 R d))
    (h1 : ∀ (p : Fin 8) (d : Fin 1024), x1 (ix2 p d) = pat (ix2 p d))
    (h2 : ∀ (d : Fin 1024) (p : Fin 8), x2 (ix2 d p) = pat (ix2 p d))
    (h3 : ∀ d e : Fin 1024, x3 (ix2 d e) = w (ix2 e d))
    (h4 : ∀ e : Fin 1024, x4 (ix2 (0 : Fin 1) e) = b (ix1 e)) :
    k0_pay1 (F := Ideal) x0 x1 x2 x3 x4 (ix2 r e) = flat h pat w b (ix2 R e) := by
  rw [payload_apply x0 x1 x2 x3 x4 (fun d p => (h2 d p).trans (h1 p d).symm) r e, flat_apply]
  simp only [h0, h1, h3, h4]

/-- What point t writes back is block t of the flat result. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero zeroOffsets]
  simp only [View.ld_unit_zero (S := S2048x1024) zeroOffsets, View.ld_unit_zero (S := S8x1024) zeroOffsets,
    View.ld_unit_zero (S := S1024x8) zeroOffsets, View.ld_unit_zero (S := S1024x1024) zeroOffsets,
    View.ld_unit_zero (S := S1x1024) zeroOffsets]
  funext j
  obtain ⟨r, e, rfl⟩ : ∃ (r : Fin 2048) (e : Fin 1024), j = ix2 r e := ⟨j 0, j 1, eq_ix2 j⟩
  have hN : cfg0.N = 32 := N_0
  have ht : t.val < 32 := hN ▸ t.isLt
  have hr : r.val < 2048 := r.isLt
  obtain ⟨-, -, -, -, -, -, -, -, -, -, e0, e1⟩ := idx_facts t
  have hemb : ((cfg0.win 5).blk t).view.emb (ix2 r e) = ix2 (⟨t.val * 2048 + r.val, by omega⟩ : Fin 65536) e :=
    funext fun a => Fin.ext (by
      match a with
      | ⟨0, _⟩ => show win0_5.index t (0 : Fin 2) * 2048 + 1 * r.val = t.val * 2048 + r.val; omega
      | ⟨1, _⟩ => show win0_5.index t (1 : Fin 2) * 1024 + 1 * e.val = e.val; omega)
  show k0_pay1 (F := Ideal) (iblk m c 0 t) (iblk m c 1 t) (iblk m c 2 t) (iblk m c 3 t) (iblk m c 4 t) (ix2 r e)
    = result m c (((cfg0.win 5).blk t).view.emb (ix2 r e))
  refine Eq.trans ?_ (congrArg (result m c) hemb).symm
  exact point_eq (iblk m c 0 t) (iblk m c 1 t) (iblk m c 2 t) (iblk m c 3 t) (iblk m c 4 t) (V m c main_v0)
    (m ((c : Thread nD τ).loc main_arg1)) (m ((c : Thread nD τ).loc main_arg2)) (m ((c : Thread nD τ).loc main_arg3))
    r e ⟨t.val * 2048 + r.val, by omega⟩
    (fun d => rows_apply m c t r d ⟨t.val * 2048 + r.val, by omega⟩ rfl)
    (fun p d => pat_apply m c t p d) (fun d p => patT_apply m c t d p) (fun d e => wT_apply m c t d e)
    (fun e => bias_apply m c t e)

/-- A row index is in point t's block exactly when each coordinate is in the block's range on its axis. -/
theorem mem_blk (t : Fin cfg0.N) (i : S65536x1024.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v5).slice (win0_5.rect t)).set ↔ _
  rw [View.set_slice_whole, Rect.mem_set_unit]
  exact Iff.rfl

/-- Every entry is written back by some point: row i by point i / 2048. -/
theorem cover (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  have hN : cfg0.N = 32 := N_0
  have hlt : (i 0).val / 2048 < cfg0.N := by rw [hN]; omega
  obtain ⟨-, -, -, -, -, -, -, -, -, -, e0, e1⟩ := idx_facts ⟨(i 0).val / 2048, hlt⟩
  have e0' : win0_5.index ⟨(i 0).val / 2048, hlt⟩ (0 : Fin 2) = (i 0).val / 2048 := e0
  refine ⟨⟨(i 0).val / 2048, hlt⟩, flush0_5 _, ?_⟩
  rw [mem_blk]
  intro a
  match a with
  | ⟨0, _⟩ =>
    show win0_5.index ⟨(i 0).val / 2048, hlt⟩ (0 : Fin 2) * 2048 ≤ (i 0).val
      ∧ (i 0).val < win0_5.index ⟨(i 0).val / 2048, hlt⟩ (0 : Fin 2) * 2048 + 2048
    omega
  | ⟨1, _⟩ =>
    show win0_5.index ⟨(i 0).val / 2048, hlt⟩ (1 : Fin 2) * 1024 ≤ (i 1).val
      ∧ (i 1).val < win0_5.index ⟨(i 0).val / 2048, hlt⟩ (1 : Fin 2) * 1024 + 1024
    omega

/-- The array after the call is the flat result. -/
theorem final (c : Dev nD) : (dats m 0 c).arrAt 5 cfg0.N = result m c :=
  (dats m 0 c).arrAt_eq_of_cover 5 (result m c) (fun t _ => flushed_eq m c t) cover

/-- The program's result: the array after the call, recast to the arguments' layout. -/
theorem tail_eq (c : Dev nD) :
    Pipeline.afterTail₀ cfgs (dats m) 0 (V0 m) [hostOps1] c main_v6
      = cube (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.devRef .tc main_v5)
      = flat (shapeCast S65536x1024 (m ((c : Thread nD τ).loc main_arg0)) shapeCasts_S8x8192x1024_S65536x1024)
          (m ((c : Thread nD τ).loc main_arg1)) (m ((c : Thread nD τ).loc main_arg2)) (m ((c : Thread nD τ).loc main_arg3)) :=
    (Pipeline.withArrays_arr spec0 launch0.win.arr_inj c _ _ 5).trans ((final m c).trans (by unfold result; rw [V_rows]))
  show shapeCast S8x8192x1024 (Pipeline.withArrays (cfgs 0).spec c (V0 m c) (fun w => (dats m 0 c).arrAt w (cfgs 0).N)
      (Proc.devRef .tc main_v5)) shapeCasts_S65536x1024_S8x8192x1024 = _
  exact (congrArg (fun A => shapeCast S8x8192x1024 A shapeCasts_S65536x1024_S8x8192x1024) hA).trans
    (recast_flat _ _ _ _ shapeCasts_S8x8192x1024_S65536x1024 shapeCasts_S65536x1024_S8x8192x1024)

/-- The kernel program's run: every weakly fair execution terminates with the result at the row function over the
    arguments' layout, and the arguments unchanged. -/
theorem run : θ_run defs (onTc (τ := τ) (main (F := Ideal))) ⟨m, fun _ => 0, ρ⟩ fun r => ∀ c : Dev nD,
      r.2.mem ((c.tc : Thread nD τ).loc main_v6)
        = cube (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Hopfield.Array

end
-- ==== Proof.lean ====
/-
  A Hopfield read-out head: each of the 65536 rows of the input is compared with a bank of eight patterns, the
  softmax of the eight similarities mixes the patterns, the mix is added to the row, and the sum goes through a
  linear layer with a bias.

  The kernel works on the input recast to 65536 rows, 2048 rows per grid point, with the pattern bank also handed
  transposed and the weights handed transposed in a narrower float format; the reference contracts over the
  arguments' own layout.  On the extended reals the two compute one function, the row function of HopfieldSpec applied
  to every row: a change of float format is the identity, a matrix product into a zero accumulator and a host
  contraction are the same sum, a lane maximum and a host maximum are the same fold from -infinity (the reference's
  extra maximum with -infinity is absorbed), the scale 1.0 commutes across the product, and the recast between the
  two layouts keeps the row-major position.  No step distributes or cancels, so the finiteness of the inputs is never
  used.  The idealization rewrote nothing, so it preserves the kernel trivially.
-/
import proofs.«181765_j23210003268292_2_alg».proof.Defs
import proofs.«181765_j23210003268292_2_alg».proof.Proof.Gen.Kernel
import proofs.«181765_j23210003268292_2_alg».proof.Proof.Gen.Kernel.Skeleton
import proofs.«181765_j23210003268292_2_alg».proof.Proof.Gen.Kernel.Launch
import proofs.«181765_j23210003268292_2_alg».proof.Proof.Gen.Kernel.Points
import proofs.«181765_j23210003268292_2_alg».proof.Proof.Gen.Kernel.Frame
import proofs.«181765_j23210003268292_2_alg».proof.Proof.Gen.KernelIdeal
import proofs.«181765_j23210003268292_2_alg».proof.Proof.Gen.KernelIdeal.Skeleton
import proofs.«181765_j23210003268292_2_alg».proof.Proof.Gen.KernelIdeal.Launch
import proofs.«181765_j23210003268292_2_alg».proof.Proof.Gen.KernelIdeal.Points
import proofs.«181765_j23210003268292_2_alg».proof.Proof.Gen.KernelIdeal.Frame
import proofs.«181765_j23210003268292_2_alg».proof.Proof.Gen.ReferenceIdeal
import proofs.«181765_j23210003268292_2_alg».proof.Proof.Gen.Pre_finite_inputs
import proofs.«181765_j23210003268292_2_alg».proof.Proof.Gen.ReferenceIdeal.Run
import proofs.«181765_j23210003268292_2_alg».proof.Proof.Gen.ReferenceIdeal.Read
import proofs.«181765_j23210003268292_2_alg».proof.Proof.HopfieldSpec
import proofs.«181765_j23210003268292_2_alg».proof.Proof.RefRows
import proofs.«181765_j23210003268292_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories that agree on the arguments both programs end with the row function of every row (k, s) of the
    input: the kernel by its run, the reference by its run read stage by stage. -/
theorem algebraic : Cert.algebraic_KernelIdeal_ReferenceIdeal := by
  intro m ρ m' ρ' _ hagree
  refine ⟨_, Cert.Hopfield.Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal) _ _ _ _).trans ?_
  rw [Cert.Hopfield.Ref.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
